-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 31
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S128x128, .bf16⟩
  | .hbm, ⟨29, _⟩ => ⟨S128x128, .bf16⟩
  | .hbm, ⟨30, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S600000, .i1⟩
  | .hbm, ⟨11, _⟩ => ⟨S600000, .f32⟩
  | .hbm, ⟨12, _⟩ => ⟨S600000x1, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.MlpSpec.lean ====
/-
  THE RESULT AS ONE FUNCTION OF THE ARRAYS.

  A graph-isomorphism layer over N = 50000 nodes with D = 128 features: every node's row of features x is added
  (with weight one) to the row agg that its incoming edges' messages sum to, and the sum goes through a two-layer
  perceptron, row by row:

      combined p j = 1 * x (p, j) + agg (p, j)
      hidden   p k = max (sum_j combined p j * w1 (j, k) + b1 k) 0
      mlp  (p, c)  = sum_k hidden p k * w2 (k, c) + b2 c

  on the extended reals. The one and the zero are kept as the float words both programs carry (0x3F800000 and
  0x00000000): the same word on both sides is never evaluated. The row agg is a parameter: the two programs differ
  only in how they form it, and the perceptron is the same function of it.
-/
import Idealize.ShloMosaic.PureOps.Ideal
import Idealize.ShloMosaic.Lib.ValueIdx

noncomputable section

namespace Cert.Gin

open Idealize.ShloMosaic Idealize.ShloMosaic.ValueIdx

/-- The float word of one, as an extended real. -/
abbrev one : EReal := Ideal.ofBits .f32 0x3F800000#32
/-- The float word of zero, as an extended real. -/
abbrev zero : EReal := Ideal.ofBits .f32 0x00000000#32

/-- A node's own features, weighted by one, plus the sum of its incoming messages. -/
def combined (x agg : (⟨2, ![50000, 128]⟩ : Shape).Idx → EReal) (p : Fin 50000) (j : Fin 128) : EReal :=
  one * x (ix2 p j) + agg (ix2 p j)

/-- The first layer: a dense map, a bias, and the rectifier. -/
def hidden (x agg : (⟨2, ![50000, 128]⟩ : Shape).Idx → EReal) (w1 : (⟨2, ![128, 128]⟩ : Shape).Idx → EReal)
    (b1 : (⟨1, ![128]⟩ : Shape).Idx → EReal) (p : Fin 50000) (k : Fin 128) : EReal :=
  max ((∑ j : Fin 128, combined x agg p j * w1 (ix2 j k)) + b1 (ix1 k)) zero

/-- The layer's result at node `i 0`, output feature `i 1`. -/
def mlp (x agg : (⟨2, ![50000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![50000, 128]⟩ : Shape).Idx → EReal := fun i =>
  (∑ k : Fin 128, hidden x agg w1 b1 (i 0) k * w2 (ix2 k (i 1))) + b2 (ix1 (i 1))

/-- The result at node `p`, output feature `q`, spelt out. -/
theorem mlp_apply (x agg : (⟨2, ![50000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (p : Fin 50000) (q : Fin 128) :
    mlp x agg w1 b1 w2 b2 (ix2 p q)
      = (∑ k : Fin 128, max ((∑ j : Fin 128, (one * x (ix2 p j) + agg (ix2 p j)) * w1 (ix2 j k)) + b1 (ix1 k)) zero
          * w2 (ix2 k q)) + b2 (ix1 q) := rfl

end Cert.Gin

end
-- ==== Proof.RefMlp.lean ====
/-
  THE REFERENCE IS THE PERCEPTRON OF ITS OWN AGGREGATE.

  The reference forms agg by a scatter-add (its stage val_main_v18, left closed here) and then computes, on whole
  arrays, 1 * x + agg, a product with w1, a bias row b1 broadcast down the nodes, the rectifier against a zero splat,
  a product with w2 and the bias row b2. Read at node p, feature q, each product is the sum over the contracted
  coordinate and each bias row is the bias at the feature: the function mlp of MlpSpec.
-/
import proofs.«151675_j39247411151300_2_alg».proof.Proof.Gen.ReferenceIdeal.Read
import proofs.«151675_j39247411151300_2_alg».proof.Proof.MlpSpec

noncomputable section

namespace Cert.Gin.Ref

open Cert.ReferenceIdeal Cert.ReferenceIdeal.Read Idealize.ShloMosaic Idealize.ShloMosaic.ValueIdx Cert.Gin

/-- The reference's result array is `mlp` of the arguments and of the aggregate its scatter-add forms. -/
theorem result_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v30 (F := Ideal) x0 x1 x2 x3 x4 x5 = mlp x0 (val_main_v18 (F := Ideal) x0 x1) x2 x3 x4 x5 := by
  funext i
  obtain ⟨p, q, rfl⟩ : ∃ (p : Fin 50000) (q : Fin 128), i = ix2 p q := ⟨i 0, i 1, eq_ix2 i⟩
  -- the composed index maps of the two products and the two bias rows, at coordinates
  have hb2 : idx_main_v28 (idx_main_v29 (ix2 p q)) = ix1 q :=
    funext fun a => Fin.ext (by match a with | ⟨0, _⟩ => rfl)
  have hl2 : ∀ k : Fin 128, lidx_main_v27 (ix2 p q) k = ix2 p k := fun k =>
    funext fun a => Fin.ext (by match a with | ⟨0, _⟩ => rfl | ⟨1, _⟩ => rfl)
  have hr2 : ∀ k : Fin 128, ridx_main_v27 (ix2 p q) k = ix2 k q := fun k =>
    funext fun a => Fin.ext (by match a with | ⟨0, _⟩ => rfl | ⟨1, _⟩ => rfl)
  have hb1 : ∀ k : Fin 128, idx_main_v23 (idx_main_v24 (ix2 p k)) = ix1 k := fun k =>
    funext fun a => Fin.ext (by match a with | ⟨0, _⟩ => rfl)
  have hl1 : ∀ k j : Fin 128, lidx_main_v22 (ix2 p k) j = ix2 p j := fun k j =>
    funext fun a => Fin.ext (by match a with | ⟨0, _⟩ => rfl | ⟨1, _⟩ => rfl)
  have hr1 : ∀ k j : Fin 128, ridx_main_v22 (ix2 p k) j = ix2 j k := fun k j =>
    funext fun a => Fin.ext (by match a with | ⟨0, _⟩ => rfl | ⟨1, _⟩ => rfl)
  rw [mlp_apply, val_main_v30_apply, val_main_v27_apply, val_main_v29_apply, val_main_v28_apply, hb2]
  simp only [hl2, hr2, val_main_v26_apply, val_main_v25_apply, val_main_v22_apply, val_main_v24_apply, val_main_v23_apply,
    hb1, hl1, hr1, val_main_call0_v0_apply, val_main_call0_cst_apply, val_main_v21_apply, val_main_v20_apply,
    val_main_v19_apply, val_main_cst_1_apply, Ideal.addf_def, Ideal.mulf_def, Ideal.maximumf_def, Ideal.ofBits_def]

end Cert.Gin.Ref

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.KernelBlock.lean ====
/-
  WHAT THE BODY COMPUTES ON ONE BLOCK OF ROWS.

  The kernel works on 5000 nodes at a time. From the block's rows of x and of agg it forms 1 * x + agg, multiplies by
  the whole matrix w1 (into a zero accumulator), adds the bias b1 laid out as one row and repeated down the block,
  takes the maximum with zero, multiplies by w2 and adds the row b2. A change of float format is the identity on the
  extended reals, so at row r of the block and feature q the result is

      sum_k max (sum_j (1 * x (r, j) + agg (r, j)) * w1 (j, k) + b1 k) 0 * w2 (k, q) + b2 q :

  each product read as the sum over its contracted coordinate, each bias row read at the feature.
-/
import proofs.«151675_j39247411151300_2_alg».proof.Proof.Gen.KernelIdeal.Skeleton
import proofs.«151675_j39247411151300_2_alg».proof.Proof.MlpSpec
import proofs.«151675_j39247411151300_2_alg».proof.Proof.LibPlainMatmul
import Idealize.ShloMosaic.Lib.ValueIdx
import Idealize.ShloMosaic.Lib.Pipeline.Value
import Idealize.ShloMosaic.Lib.ValueLayout

noncomputable section

namespace Cert.Gin.Block

open Cert.KernelIdeal Cert.KernelIdeal.Gen Idealize.ShloMosaic Idealize.ShloMosaic.ValueIdx Cert.Gin

/-- A bias vector laid out as one row and repeated down the 5000 rows of a block reads the bias at the feature. -/
theorem biasRow_apply (b : FVec Ideal S128 .f32) (hc : S128.ShapeCasts S1x128) (hb : S1x128.Broadcasts S5000x128)
    (r : Fin 5000) (k : Fin 128) :
    broadcastTo S5000x128 (shapeCast S1x128 b hc) hb (ix2 r k) = b (ix1 k) :=
  (broadcastTo_1b_ab_apply (shapeCast S1x128 b hc) hb r k).trans (shapeCast_a_1a_apply b hc (0 : Fin 1) k)

/-- The body's stored value at row `r` of the block, feature `q`. -/
theorem payload_apply (v0 v3 : FVec Ideal S5000x128 .f32) (v7 : FVec Ideal S128x128 .bf16) (v10 : FVec Ideal S128 .f32)
    (v17 : FVec Ideal S128x128 .bf16) (v20 : FVec Ideal S128 .f32) (r : Fin 5000) (q : Fin 128) :
    k0_pay1 (F := Ideal) v0 v3 v7 v10 v17 v20 (ix2 r q)
      = (∑ k : Fin 128, max ((∑ j : Fin 128, (one * v0 (ix2 r j) + v3 (ix2 r j)) * v7 (ix2 j k)) + v10 (ix1 k)) zero
          * v17 (ix2 k q)) + v20 (ix1 q) := by
  unfold k0_pay1
  -- the three casts of a block to its own shape are the identity
  simp only [shapeCast_self]
  -- the second layer: a product into zero plus the bias row
  refine (addf_apply _ _ _).trans ?_
  rw [biasRow_apply]
  refine congrArg (· + v20 (ix1 q)) ?_
  refine (Cert.Lib.PlainMatmul.matmul_zero_apply dot_S5000x128_S128x128_S5000x128_1_0_0_1_n_n rfl rfl rfl rfl rfl rfl
    none _ _ r q).trans ?_
  refine Finset.sum_congr rfl fun k _ => ?_
  refine congrArg (· * v17 (ix2 k q)) ?_
  -- the first layer at (r, k): the rectifier of a product into zero plus the bias row
  rw [truncf_apply, maximumf_apply, broadcast_apply, addf_apply, biasRow_apply]
  refine congrArg (fun z => max (z + v10 (ix1 k)) zero) ?_
  refine (Cert.Lib.PlainMatmul.matmul_zero_apply dot_S5000x128_S128x128_S5000x128_1_0_0_1_n_n rfl rfl rfl rfl rfl rfl
    none _ _ r k).trans ?_
  refine Finset.sum_congr rfl fun j _ => ?_
  rw [truncf_apply, addf_apply, mulf_apply, broadcast_apply]
  rfl

end Cert.Gin.Block

end
-- ==== Proof.KernelArray.lean ====
/-
  FROM BLOCKS OF ROWS TO THE WHOLE ARRAY.

  The grid has ten points. At point t the kernel reads rows 5000 t .. 5000 t + 4999 of x and of agg, the whole of the
  two weight matrices and of the two bias vectors, and writes rows 5000 t .. 5000 t + 4999 of the result. The
  perceptron works row by row, so what point t writes is block t of the one function mlp of the whole arrays; the ten
  blocks tile the 50000 rows (row p is in block p / 5000), so after the run the result array is mlp of the arrays as
  the kernel found them.
-/
import proofs.«151675_j39247411151300_2_alg».proof.Proof.Gen.KernelIdeal.Value
import proofs.«151675_j39247411151300_2_alg».proof.Proof.KernelBlock

set_option maxRecDepth 16384

noncomputable section

namespace Cert.Gin.Array

open Cert.KernelIdeal Cert.KernelIdeal.Gen Idealize.ShloMosaic Idealize.ShloMosaic.TcCoe Idealize.SL.Sem
open Idealize.ShloMosaic.ValueIdx Cert.Gin
open Idealize.ShloMosaic.Pipeline (Dat)

variable (m : (ℓ : Loc nD τ sig) → Buf (Elt Ideal) ℓ) (c : Dev nD)

theorem off2 : (![0, 0] : Fin 2 → Nat) = fun _ => 0 := funext fun a => by fin_cases a <;> rfl
theorem off1 : (![0] : Fin 1 → Nat) = fun _ => 0 := funext fun a => by fin_cases a <;> rfl

/-- The index maps over the grid: the row blocks of x, agg and the result move with the point, everything else stays. -/
theorem idx_facts : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- Every block of ten is some point's. -/
theorem idx_onto : ∀ b : Fin 10, ∃ t : Fin cfg0.N, t.val = b.val :=
  (by decide +kernel : ∀ b : Fin 10, ∃ t : Fin grid0.N, t.val = b.val)

/-! ## Each window's block at a point, read off its array -/

theorem read_x (t : Fin cfg0.N) (r : Fin 5000) (j : Fin 128) (p : Fin 50000) (hp : p.val = t.val * 5000 + r.val) :
    iblk m c 0 t (ix2 r j) = V m c main_arg0 (ix2 p j) := by
  show V m c main_arg0 (((cfg0.win 0).blk t).view.emb (ix2 r j)) = V m c main_arg0 (ix2 p j)
  obtain ⟨-, -, e0, e1, -⟩ := idx_facts t
  refine congrArg _ (funext fun a => Fin.ext ?_)
  match a with
  | ⟨0, _⟩ => show win0_0.index t (0 : Fin 2) * 5000 + 1 * r.val = p.val; omega
  | ⟨1, _⟩ => show win0_0.index t (1 : Fin 2) * 128 + 1 * j.val = j.val; omega

theorem read_agg (t : Fin cfg0.N) (r : Fin 5000) (j : Fin 128) (p : Fin 50000) (hp : p.val = t.val * 5000 + r.val) :
    iblk m c 1 t (ix2 r j) = V m c main_v15 (ix2 p j) := by
  show V m c main_v15 (((cfg0.win 1).blk t).view.emb (ix2 r j)) = V m c main_v15 (ix2 p j)
  obtain ⟨-, -, -, -, e0, e1, -⟩ := idx_facts t
  refine congrArg _ (funext fun a => Fin.ext ?_)
  match a with
  | ⟨0, _⟩ => show win0_1.index t (0 : Fin 2) * 5000 + 1 * r.val = p.val; omega
  | ⟨1, _⟩ => show win0_1.index t (1 : Fin 2) * 128 + 1 * j.val = j.val; omega

theorem read_w1 (t : Fin cfg0.N) (j k : Fin 128) : iblk m c 2 t (ix2 j k) = V m c main_v16 (ix2 j k) := by
  show V m c main_v16 (((cfg0.win 2).blk t).view.emb (ix2 j k)) = V m c main_v16 (ix2 j k)
  obtain ⟨-, -, -, -, -, -, e0, e1, -⟩ := idx_facts t
  refine congrArg _ (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

theorem read_b1 (t : Fin cfg0.N) (k : Fin 128) : iblk m c 3 t (ix1 k) = V m c main_arg3 (ix1 k) := by
  show V m c main_arg3 (((cfg0.win 3).blk t).view.emb (ix1 k)) = V m c main_arg3 (ix1 k)
  obtain ⟨-, -, -, -, -, -, -, -, e0, -⟩ := idx_facts t
  refine congrArg _ (funext fun a => Fin.ext ?_)
  match a with
  | ⟨0, _⟩ => show win0_3.index t (0 : Fin 1) * 128 + 1 * k.val = k.val; omega

theorem read_w2 (t : Fin cfg0.N) (k q : Fin 128) : iblk m c 4 t (ix2 k q) = V m c main_v17 (ix2 k q) := by
  show V m c main_v17 (((cfg0.win 4).blk t).view.emb (ix2 k q)) = V m c main_v17 (ix2 k q)
  obtain ⟨-, -, -, -, -, -, -, -, -, e0, e1, -⟩ := idx_facts t
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem read_b2 (t : Fin cfg0.N) (q : Fin 128) : iblk m c 5 t (ix1 q) = V m c main_arg5 (ix1 q) := by
  show V m c main_arg5 (((cfg0.win 5).blk t).view.emb (ix1 q)) = V m c main_arg5 (ix1 q)
  obtain ⟨-, -, -, -, -, -, -, -, -, -, -, e0⟩ := idx_facts t
  refine congrArg _ (funext fun a => Fin.ext ?_)
  match a with
  | ⟨0, _⟩ => show win0_5.index t (0 : Fin 1) * 128 + 1 * q.val = q.val; omega

/-! ## One block of the perceptron -/

/-- The body's result on blocks that are rows `T * 5000 ..` of `X` and `A` and the whole of the weights and biases is,
    at an index `y` of the block, `mlp` of the whole arrays at the index `i` that `y` is in the array. -/
theorem block_of_mlp (X A : (⟨2, ![50000, 128]⟩ : Shape).Idx → EReal) (W1 : (⟨2, ![128, 128]⟩ : Shape).Idx → EReal)
    (B1 : (⟨1, ![128]⟩ : Shape).Idx → EReal) (W2 : (⟨2, ![128, 128]⟩ : Shape).Idx → EReal)
    (B2 : (⟨1, ![128]⟩ : Shape).Idx → EReal)
    (x0 x1 : FVec Ideal S5000x128 .f32) (x2 : FVec Ideal S128x128 .bf16) (x3 : FVec Ideal S128 .f32)
    (x4 : FVec Ideal S128x128 .bf16) (x5 : FVec Ideal S128 .f32) (T : ℕ)
    (y : S5000x128.Idx) (i : S50000x128.Idx)
    (hrow : (i 0).val = T * 5000 + (y 0).val) (hcol : (i 1).val = (y 1).val)
    (h0 : ∀ (r : Fin 5000) (j : Fin 128) (p : Fin 50000), p.val = T * 5000 + r.val → x0 (ix2 r j) = X (ix2 p j))
    (h1 : ∀ (r : Fin 5000) (j : Fin 128) (p : Fin 50000), p.val = T * 5000 + r.val → x1 (ix2 r j) = A (ix2 p j))
    (h2 : ∀ j k : Fin 128, x2 (ix2 j k) = W1 (ix2 j k)) (h3 : ∀ k : Fin 128, x3 (ix1 k) = B1 (ix1 k))
    (h4 : ∀ k q : Fin 128, x4 (ix2 k q) = W2 (ix2 k q)) (h5 : ∀ q : Fin 128, x5 (ix1 q) = B2 (ix1 q)) :
    k0_pay1 (F := Ideal) x0 x1 x2 x3 x4 x5 y = mlp X A W1 B1 W2 B2 i := by
  obtain ⟨r, q, rfl⟩ : ∃ (r : Fin 5000) (q : Fin 128), y = ix2 r q := ⟨y 0, y 1, eq_ix2 y⟩
  obtain ⟨p, q', rfl⟩ : ∃ (p : Fin 50000) (q' : Fin 128), i = ix2 p q' := ⟨i 0, i 1, eq_ix2 i⟩
  have hq : q' = q := Fin.ext hcol
  subst hq
  have hp : p.val = T * 5000 + r.val := hrow
  rw [Cert.Gin.Block.payload_apply, mlp_apply]
  simp only [fun j => h0 r j p hp, fun j => h1 r j p hp, h2, h3, h4, h5]

/-! ## What a point writes back, the cover, and the array after the run -/

/-- Point `t` writes back block `t` of `mlp` of the arrays as the kernel finds them. -/
theorem flushed_eq (t : Fin cfg0.N) :
    (dats m 0 c).flushed 6 t = ((cfg0.win 6).blk t).view.read (Elt Ideal)
      (mlp (V m c main_arg0) (V m c main_v15) (V m c main_v16) (V m c main_arg3) (V m c main_v17) (V m c main_arg5)) := by
  rw [Cert.KernelIdeal.Value.flushed6]
  unfold out0_6
  rw [View.canon_unit_zero off2]
  simp only [View.ld_unit_zero (S := S5000x128) off2, View.ld_unit_zero (S := S128x128) off2,
    View.ld_unit_zero (S := S128) off1]
  obtain ⟨e0, e1, -⟩ := idx_facts t
  funext y
  show k0_pay1 (F := Ideal) (iblk m c 0 t) (iblk m c 1 t) (iblk m c 2 t) (iblk m c 3 t) (iblk m c 4 t) (iblk m c 5 t) y
    = mlp (V m c main_arg0) (V m c main_v15) (V m c main_v16) (V m c main_arg3) (V m c main_v17) (V m c main_arg5)
        (((cfg0.win 6).blk t).view.emb y)
  refine block_of_mlp _ _ _ _ _ _ (iblk m c 0 t) (iblk m c 1 t) (iblk m c 2 t) (iblk m c 3 t) (iblk m c 4 t) (iblk m c 5 t)
    t.val y _ ?_ ?_ (fun r j p hp => read_x m c t r j p hp) (fun r j p hp => read_agg m c t r j p hp)
    (fun j k => read_w1 m c t j k) (fun k => read_b1 m c t k) (fun k q => read_w2 m c t k q) (fun q => read_b2 m c t q)
  · show win0_6.index t (0 : Fin 2) * 5000 + 1 * (y 0).val = t.val * 5000 + (y 0).val
    omega
  · show win0_6.index t (1 : Fin 2) * 128 + 1 * (y 1).val = (y 1).val
    omega

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- Every index of the result array is in the block of the point `(i 0) / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e0, e1, -⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE RESULT ARRAY after the run: `mlp` of the arrays as the kernel finds them. -/
theorem final : (dats m 0 c).arrAt 6 cfg0.N
    = mlp (V m c main_arg0) (V m c main_v15) (V m c main_v16) (V m c main_arg3) (V m c main_v17) (V m c main_arg5) :=
  (dats m 0 c).arrAt_eq_of_cover 6 _ (fun t _ => flushed_eq m c t) (cover)

end Cert.Gin.Array

end
-- ==== Proof.KernelHost.lean ====
/-
  WHAT THE KERNEL'S ARRAYS HOLD WHEN THE GRID STARTS.

  Before the grid runs, the program forms the aggregate on whole arrays: the edges' destinations row and sources col
  are the two rows of the edge list; a self-loop's destination is replaced by 50000; a negative source is wrapped by
  adding 50000; the messages are the rows of x gathered at the sources; and the aggregate is their scatter-add into a
  zero array at the destinations. The two weight matrices are changed to a narrower float format, which on the
  extended reals is the identity. The node features and the two bias vectors reach the grid as they were launched.
-/
import proofs.«151675_j39247411151300_2_alg».proof.Proof.Gen.KernelIdeal.Frame
import Idealize.ShloMosaic.Lib.StableHlo.Run
import Idealize.ShloMosaic.Lib.ValueIdx

noncomputable section

namespace Cert.Gin.KHost

open Cert.KernelIdeal Cert.KernelIdeal.Gen Idealize.ShloMosaic Idealize.ShloMosaic.TcCoe Idealize.SL.Sem
open Idealize.ShloMosaic.StableHlo

/-- The destinations of the edges: the first row of the edge list. -/
def row (e1 : (⟨S2x600000, .i32⟩ : BufTy).Contents (Elt Ideal)) : (⟨S600000, .i32⟩ : BufTy).Contents (Elt Ideal) :=
  shapeCast _ (extractStridedSlice S1x600000 ![0, 0] e1 slices_S2x600000_S1x600000_0_0) shapeCasts_S1x600000_S600000

/-- The sources of the edges: the second row of the edge list. -/
def col (e1 : (⟨S2x600000, .i32⟩ : BufTy).Contents (Elt Ideal)) : (⟨S600000, .i32⟩ : BufTy).Contents (Elt Ideal) :=
  shapeCast _ (extractStridedSlice S1x600000 ![1, 0] e1 slices_S2x600000_S1x600000_1_0) shapeCasts_S1x600000_S600000

/-- The scatter's destinations: 50000, which is no node, for a self-loop. -/
def dest (e1 : (⟨S2x600000, .i32⟩ : BufTy).Contents (Elt Ideal)) : (⟨S600000, .i32⟩ : BufTy).Contents (Elt Ideal) :=
  select (cmpi .eq (row e1) (col e1)) (broadcastInDim S600000 ![] bcast_S_S600000 (constantI S_ 32 50000#32)) (row e1)

/-- The gather's sources: a negative one wrapped by the number of nodes. -/
def source (e1 : (⟨S2x600000, .i32⟩ : BufTy).Contents (Elt Ideal)) : (⟨S600000, .i32⟩ : BufTy).Contents (Elt Ideal) :=
  select (cmpi .slt (col e1) (broadcastInDim S600000 ![] bcast_S_S600000 (constantI S_ 32 0#32)))
    (addi (col e1) (broadcastInDim S600000 ![] bcast_S_S600000 (constantI S_ 32 50000#32))) (col e1)

/-- The messages: the rows of the features at the sources. -/
def messages (x0 : (⟨S50000x128, .f32⟩ : BufTy).Contents (Elt Ideal)) (e1 : (⟨S2x600000, .i32⟩ : BufTy).Contents (Elt Ideal)) :
    (⟨S600000x128, .f32⟩ : BufTy).Contents (Elt Ideal) :=
  Host.gather gather_S50000x128_S600000x1_S600000x128_1_0_n_n_0_1_1128 x0
    (broadcastInDim S600000x1 ![0] bcast_S600000_S600000x1_0 (source e1))

/-- The aggregate: the messages summed into a zero array at their destinations. -/
def agg (x0 : (⟨S50000x128, .f32⟩ : BufTy).Contents (Elt Ideal)) (e1 : (⟨S2x600000, .i32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (dest e1)) (messages x0 e1)

variable (m : (ℓ : Loc nD τ sig) → Buf (Elt Ideal) ℓ) (c : Dev nD)

/-- The second window's array is the aggregate of the launched features and edge list. -/
theorem V_agg : V m c main_v15 = agg (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp <;> rfl

/-- The third window's array is the first weight matrix: the change of format is the identity. -/
theorem V_w1 : (V m c main_v16 : S128x128.Idx → EReal) = m ((c : Thread nD τ).loc main_arg2) := by
  dsimp only [V]
  simp only [hostOps0, hostOps0_1, hostOps0_2, List.flatten_cons, List.flatten_nil, List.append_nil, List.cons_append,
    List.nil_append]
  after_results_simp <;> rfl

/-- The fifth window's array is the second weight matrix. -/
theorem V_w2 : (V m c main_v17 : S128x128.Idx → EReal) = m ((c : Thread nD τ).loc main_arg4) := by
  dsimp only [V]
  simp only [hostOps0, hostOps0_1, hostOps0_2, List.flatten_cons, List.flatten_nil, List.append_nil, List.cons_append,
    List.nil_append]
  after_results_simp <;> rfl

end Cert.Gin.KHost

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«151675_j39247411151300_2_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.LibScatterEdges.lean ====
/-
  A ROW SCATTER-ADD AS A SUM OVER EDGES, and the linearity of the aggregation in the features.

  A row scatter into [N, C] at scatter indices [E, 1] sends update (e, c) to (idx (e, 0), c) exactly when the start
  index, read signed, is a row of the matrix. So the updates that land on (r, q) are the (e, q) with idx (e, 0) = r, and
  the sum the scatter-add forms at (r, q) is a sum over those EDGES e, the same set of edges for every column q and every
  number of columns C. That is what lets an aggregation of C = 3 raw features followed by a dense layer be compared
  with the aggregation of the C = 128 transformed features: over the reals (all entries finite) both are the double sum
  over the edges into r and the contracted coordinate.
-/
import proofs.«151675_j39247411151300_2_alg».proof.Proof.LibGraphRows

namespace Cert.Lib.ScatterEdges

open Idealize.ShloMosaic Idealize.ShloMosaic.ValueIdx

/-- The row scatter's dimension numbers as a literal record. -/
abbrev rowSc (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
theorem rowSc_hits {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N)
    (h : (idx (ix2 e (0 : Fin 1))).toInt = (r.val : ℤ)) :
    (rowSc N E C wf).resultIdx? (ix2 e c) idx = some (ix2 r c) := by
  have hs0 : (rowSc N E C wf).start (ix2 e c) idx 0 = (idx (ix2 e (0 : Fin 1))).toInt := by
    unfold ScatterDims.start
    rw [dif_pos (List.mem_singleton.mpr rfl)]
    have hsi : (rowSc N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowSc N E C wf).window (ix2 e c) 0 = 0 := by
    unfold ScatterDims.window
    rw [dif_neg (by simp [ScatterDims.sKept, Shape.kept])]
  have hs1 : (rowSc N E C wf).start (ix2 e c) idx 1 = 0 := by
    unfold ScatterDims.start
    rw [dif_neg (show ¬ (1 : Fin 2) ∈ [(0 : Fin 2)] by decide)]
  have hw1 : (rowSc N E C wf).window (ix2 e c) 1 = c.val := by
    unfold ScatterDims.window
    rw [dif_pos (by simp [ScatterDims.sKept, Shape.kept])]
    rfl
  have hr := r.isLt
  have hc := c.isLt
  have hb : ∀ a, 0 ≤ (rowSc N E C wf).start (ix2 e c) idx a + ((rowSc N E C wf).window (ix2 e c) a : ℕ)
      ∧ (rowSc N E C wf).start (ix2 e c) idx a + ((rowSc N E C wf).window (ix2 e c) a : ℕ) < (⟨2, ![N, C]⟩ : Shape).size a := by
    refine Fin.forall_fin_two.mpr ⟨?_, ?_⟩
    · rw [hs0, hw0, h]
      show (0 : ℤ) ≤ (r.val : ℤ) + ((0 : ℕ) : ℤ) ∧ (r.val : ℤ) + ((0 : ℕ) : ℤ) < ((N : ℕ) : ℤ)
      omega
    · rw [hs1, hw1]
      show (0 : ℤ) ≤ 0 + ((c.val : ℕ) : ℤ) ∧ (0 : ℤ) + ((c.val : ℕ) : ℤ) < ((C : ℕ) : ℤ)
      omega
  unfold ScatterDims.resultIdx?
  rw [dif_pos hb]
  refine congrArg some (funext fun a => Fin.ext ?_)
  revert a
  refine Fin.forall_fin_two.mpr ⟨?_, ?_⟩
  · show ((rowSc N E C wf).start (ix2 e c) idx 0 + ((rowSc N E C wf).window (ix2 e c) 0 : ℕ)).toNat = r.val
    rw [hs0, hw0, h]; simp
  · show ((rowSc N E C wf).start (ix2 e c) idx 1 + ((rowSc N E C wf).window (ix2 e c) 1 : ℕ)).toNat = c.val
    rw [hs1, hw1]; simp

/-- An update (e, c) whose start index, read signed, is the row r lands at (r, c). -/
theorem scatterRows_hits {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (r : Fin N)
    (h : (idx (ix2 e (0 : Fin 1))).toInt = (r.val : ℤ)) :
    d.resultIdx? (ix2 e c) idx = some (ix2 r c) := by
  obtain ⟨uw, iw, sd, iv, wf⟩ := d
  dsimp only at h1 h2 h3 h4
  subst h1 h2 h3 h4
  exact rowSc_hits wf idx e c r h

/-- The edges whose destination, read signed, is the row r. -/
def into {N E w : ℕ} (idx : IVec ⟨2, ![E, 1]⟩ w) (r : Fin N) : Finset (Fin E) :=
  Finset.univ.filter fun e => (idx (ix2 e (0 : Fin 1))).toInt = (r.val : ℤ)

/-- The sum a row scatter-add forms at (r, q) is the sum over the edges into r of the update at (e, q). -/
theorem sum_lands {N E C w : ℕ} {M : Type*} [AddCommMonoid M]
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (r : Fin N) (q : Fin C)
    (F : (⟨2, ![E, C]⟩ : Shape).Idx → M) :
    ∑ j ∈ Finset.univ.filter (fun j => d.resultIdx? j idx = some (ix2 r q)), F j
      = ∑ e ∈ into idx r, F (ix2 e q) := by
  have key : ∀ j : (⟨2, ![E, C]⟩ : Shape).Idx, d.resultIdx? j idx = some (ix2 r q) →
      (idx (ix2 (j 0) (0 : Fin 1))).toInt = (r.val : ℤ) ∧ j = ix2 (j 0) q := by
    intro j hj
    have hj' := hj
    rw [eq_ix2 j] at hj'
    obtain ⟨hrow, hcol⟩ := Cert.Lib.GraphRows.scatterRows_lands d h1 h2 h3 h4 idx (j 0) (j 1) (ix2 r q) hj'
    refine ⟨hrow, ?_⟩
    have hq : j 1 = q := Fin.ext hcol.symm
    exact (eq_ix2 j).trans (congrArg (fun z : Fin C => (ix2 (j 0) z : (⟨2, ![E, C]⟩ : Shape).Idx)) hq)
  refine Finset.sum_bij' (fun j _ => j 0) (fun e _ => ix2 e q) ?_ ?_ ?_ ?_ ?_
  · intro j hj
    exact Finset.mem_filter.mpr ⟨Finset.mem_univ _, (key j (Finset.mem_filter.mp hj).2).1⟩
  · intro e he
    exact Finset.mem_filter.mpr ⟨Finset.mem_univ _, scatterRows_hits d h1 h2 h3 h4 idx e q r (Finset.mem_filter.mp he).2⟩
  · intro j hj
    exact ((key j (Finset.mem_filter.mp hj).2).2).symm
  · intro e _
    rfl
  · intro j hj
    exact congrArg F (key j (Finset.mem_filter.mp hj).2).2

/-! ## Linearity over the reals -/

/-- The coercion of the reals into the extended reals commutes with finite sums. -/
theorem coe_sum {ι : Type*} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- LINEARITY OF THE AGGREGATION. With real features x (per edge, per raw coordinate j), real weights W, a real
    normalisation a per edge and d of the destination: aggregating the raw coordinates (each edge's scaled by its a),
    scaling the sum by d, and THEN contracting with the weights is aggregating the contracted rows each times a e * d. -/
theorem aggregate_then_transform {ι κ : Type*} [Fintype κ] (S : Finset ι) (x : ι → κ → ℝ) (a : ι → ℝ) (W : κ → ℝ) (d : ℝ) :
    ∑ j : κ, ((d : EReal) * (0 + ∑ e ∈ S, (x e j : EReal) * (a e : EReal))) * (W j : EReal)
      = 0 + ∑ e ∈ S, (∑ j : κ, (x e j : EReal) * (W j : EReal)) * ((a e : EReal) * (d : EReal)) := by
  simp only [zero_add, ← EReal.coe_mul, ← coe_sum]
  refine congrArg _ ?_
  simp only [Finset.mul_sum, Finset.sum_mul]
  rw [Finset.sum_comm]
  refine Finset.sum_congr rfl fun e _ => Finset.sum_congr rfl fun j _ => ?_
  ring

end Cert.Lib.ScatterEdges
-- ==== Proof.EdgeSums.lean ====
/-
  DROPPING SELF-LOOPS: TWO WAYS TO LEAVE AN EDGE OUT OF A SUM.

  An edge e goes from node col e to node row e and carries a message g e. The sum of the messages that arrive at a
  node r is taken over the edges whose destination, read as a signed integer, is r. A self-loop (row e = col e) is
  to contribute nothing. One program sends a self-loop's message to the destination 50000, which is no node, so the
  message never arrives; the other keeps the destination and multiplies the message by the indicator of
  row e ≠ col e, a float one or zero. At any node r ≠ 50000 both sums are the sum over the edges into r that are not
  self-loops: a product with one is the message, and a product with zero is zero for EVERY extended real (the
  convention 0 * ±∞ = 0), so nothing is asked of the messages.
-/
import Idealize.ShloMosaic.PureOps.Ideal
import Idealize.ShloMosaic.Lib.ValueIdx

namespace Cert.Gin

open Idealize.ShloMosaic Idealize.ShloMosaic.ValueIdx

/-- Equal words compare equal. -/
theorem cmpi_eq_self {w : ℕ} (a : BitVec w) : IntOp.cmpi .eq a a = 1#1 := by
  show BitVec.ofBool (a == a) = 1#1
  rw [beq_self_eq_true]; rfl

/-- Distinct words do not compare equal. -/
theorem cmpi_eq_of_ne {w : ℕ} {a b : BitVec w} (h : a ≠ b) : IntOp.cmpi .eq a b = 0#1 := by
  show BitVec.ofBool (a == b) = 0#1
  rw [beq_eq_false_iff_ne.mpr h]; rfl

/-- A word does not differ from itself. -/
theorem cmpi_ne_self {w : ℕ} (a : BitVec w) : IntOp.cmpi .ne a a = 0#1 := by
  show BitVec.ofBool (a != a) = 0#1
  rw [bne_self_eq_false]; rfl

/-- Distinct words differ. -/
theorem cmpi_ne_of_ne {w : ℕ} {a b : BitVec w} (h : a ≠ b) : IntOp.cmpi .ne a b = 1#1 := by
  show BitVec.ofBool (a != b) = 1#1
  rw [bne_iff_ne.mpr h]; rfl

/-- The indicator bit zero as a float is zero. -/
theorem uitofp_zero : FloatOps.uitofp (F := Ideal) .f32 (0#1) = (0 : EReal) := by
  show (((0#1 : BitVec 1).toNat : ℝ) : EReal) = 0
  simp

/-- The indicator bit one as a float is one. -/
theorem uitofp_one : FloatOps.uitofp (F := Ideal) .f32 (1#1) = (1 : EReal) := by
  show (((1#1 : BitVec 1).toNat : ℝ) : EReal) = 1
  simp

/-- THE LAW. At a destination `r` other than 50000, the messages of the edges whose destination is `row e`, or 50000 for
    a self-loop, sum to the messages times the indicator of `row e ≠ col e` over the edges with destination `row e`. -/
theorem sum_without_self_loops {E : ℕ} (row col : Fin E → BitVec 32) (g : Fin E → EReal) (r : ℤ) (hr : r ≠ 50000) :
    ∑ e ∈ Finset.univ.filter (fun e => (Scalar.select (IntOp.cmpi .eq (row e) (col e)) (50000#32) (row e)).toInt = r), g e
      = ∑ e ∈ Finset.univ.filter (fun e => (row e).toInt = r),
          g e * FloatOps.uitofp (F := Ideal) .f32 (IntOp.cmpi .ne (row e) (col e)) := by
  rw [Finset.sum_filter, Finset.sum_filter]
  refine Finset.sum_congr rfl fun e _ => ?_
  by_cases h : row e = col e
  · rw [← h, cmpi_eq_self, select_one, cmpi_ne_self, uitofp_zero, mul_zero]
    have h5 : (50000#32 : BitVec 32).toInt = 50000 := by decide
    rw [h5, if_neg (fun hh => hr hh.symm)]
    split_ifs <;> rfl
  · rw [cmpi_eq_of_ne h, select_zero, cmpi_ne_of_ne h, uitofp_one, mul_one]

end Cert.Gin
-- ==== Proof.Aggregation.lean ====
/-
  THE TWO AGGREGATES ARE ONE ARRAY.

  Both programs scatter-add 600000 message rows of 128 features into a zero array of 50000 node rows. The entry at
  node r, feature q is the zero plus the sum, over the edges whose destination read as a signed integer is r, of the
  message at (e, q). One program's destinations are row e, or 50000 for a self-loop; the other's are row e with each
  message multiplied by the indicator of row e ≠ col e. A node r is below 50000, so by the law of EdgeSums the two
  sums agree, whatever the messages are.
-/
import proofs.«151675_j39247411151300_2_alg».proof.Proof.LibScatterEdges
import proofs.«151675_j39247411151300_2_alg».proof.Proof.EdgeSums

namespace Cert.Gin

open Idealize.ShloMosaic Idealize.ShloMosaic.ValueIdx Cert.Lib.ScatterEdges Cert.Lib.GraphRows

/-- Two row scatter-adds into arrays that agree, the first with a self-loop's destination moved to 50000, the second
    with a self-loop's message multiplied by zero, are the same array. -/
theorem scatter_eq
    (dK dR : ScatterDims ⟨2, ![50000, 128]⟩ ⟨2, ![600000, 1]⟩ ⟨2, ![600000, 128]⟩)
    (k1 : dK.updateWindowDims = [1]) (k2 : dK.insertedWindowDims = [0]) (k3 : dK.scatterDimsToOperandDims = [0])
    (k4 : dK.indexVectorDim = 1)
    (r1 : dR.updateWindowDims = [1]) (r2 : dR.insertedWindowDims = [0]) (r3 : dR.scatterDimsToOperandDims = [0])
    (r4 : dR.indexVectorDim = 1)
    (zK zR : FVec Ideal ⟨2, ![50000, 128]⟩ .f32) (hz : ∀ i, zK i = zR i)
    (row col : Fin 600000 → BitVec 32)
    (idxK idxR : IVec ⟨2, ![600000, 1]⟩ 32)
    (hK : ∀ e : Fin 600000, idxK (ix2 e (0 : Fin 1))
      = Scalar.select (IntOp.cmpi .eq (row e) (col e)) (50000#32) (row e))
    (hR : ∀ e : Fin 600000, idxR (ix2 e (0 : Fin 1)) = row e)
    (updK updR : FVec Ideal ⟨2, ![600000, 128]⟩ .f32)
    (hU : ∀ (e : Fin 600000) (q : Fin 128), updR (ix2 e q)
      = updK (ix2 e q) * FloatOps.uitofp (F := Ideal) .f32 (IntOp.cmpi .ne (row e) (col e))) :
    Host.scatterAdd dK zK idxK updK = Host.scatterAdd dR zR idxR updR := by
  funext i
  obtain ⟨r, q, rfl⟩ : ∃ (r : Fin 50000) (q : Fin 128), i = ix2 r q := ⟨i 0, i 1, eq_ix2 i⟩
  rw [scatterAdd_apply, scatterAdd_apply, sum_lands dK k1 k2 k3 k4 idxK r q updK,
    sum_lands dR r1 r2 r3 r4 idxR r q updR, hz]
  refine congrArg (zR (ix2 r q) + ·) ?_
  unfold into
  simp only [hK, hR, hU]
  exact sum_without_self_loops row col (fun e => updK (ix2 e q)) (r.val : ℤ) (by have := r.isLt; omega)

end Cert.Gin
-- ==== Proof.AggBridge.lean ====
/-
  THE KERNEL'S AGGREGATE IS THE REFERENCE'S.

  Both programs cut the same destinations row and sources col out of the edge list, wrap a negative source the same
  way and gather the same message rows. They differ in how a self-loop is left out: the kernel scatters the plain
  messages at the destinations with a self-loop's destination replaced by 50000; the reference scatters at row the
  messages times the indicator of row ≠ col, laid down a column and repeated along the features. Read at an edge
  and a feature these are the hypotheses of the law in Aggregation, so the two aggregates are one array.
-/
import proofs.«151675_j39247411151300_2_alg».proof.Proof.KernelHost
import proofs.«151675_j39247411151300_2_alg».proof.Proof.Gen.ReferenceIdeal.Read
import proofs.«151675_j39247411151300_2_alg».proof.Proof.Aggregation

noncomputable section

namespace Cert.Gin.Bridge

open Cert.ReferenceIdeal Cert.ReferenceIdeal.Read Idealize.ShloMosaic Idealize.ShloMosaic.ValueIdx Cert.Gin

variable (x0 : (⟨S50000x128, .f32⟩ : BufTy).Contents (Elt Ideal)) (e1 : (⟨S2x600000, .i32⟩ : BufTy).Contents (Elt Ideal))

/-- Both programs read the destinations off the first row of the edge list. -/
theorem row_eq : KHost.row e1 = val_main_v1 (F := Ideal) e1 := rfl

/-- Both programs read the sources off the second row of the edge list. -/
theorem col_eq : KHost.col e1 = val_main_v3 (F := Ideal) e1 := rfl

/-- Both programs gather the same message rows. -/
theorem messages_eq : KHost.messages x0 e1 = val_main_v13 (F := Ideal) x0 e1 := rfl

/-- The kernel's aggregate is the reference's scatter-add stage. -/
theorem agg_eq : KHost.agg x0 e1 = val_main_v18 (F := Ideal) x0 e1 := by
  unfold KHost.agg val_main_v18
  refine scatter_eq _ _ rfl rfl rfl rfl rfl rfl rfl rfl _ _ (fun i => rfl)
    (fun e => val_main_v1 (F := Ideal) e1 (ix1 e)) (fun e => val_main_v3 (F := Ideal) e1 (ix1 e)) _ _
    (fun e => ?_) (fun e => ?_) _ _ (fun e q => ?_)
  · -- the kernel's destination of edge e
    refine (broadcastInDim_apply _ _ (KHost.dest e1) (ix2 e (0 : Fin 1)) (ix1 e) (fun a => by
      match a with
      | ⟨0, _⟩ => show e.val = if (600000 : ℕ) = 1 then 0 else e.val; rw [if_neg (by decide)])).trans ?_
    rw [← row_eq, ← col_eq]
    rfl
  · -- the reference's destination of edge e
    rw [val_main_v17_apply]
    exact congrArg _ (funext fun a => Fin.ext (by match a with | ⟨0, _⟩ => rfl))
  · -- the reference's update at edge e, feature q: the message times the indicator
    have hi : idx_main_v6 (idx_main_v14 (ix2 e q)) = ix1 e :=
      funext fun a => Fin.ext (by match a with | ⟨0, _⟩ => rfl)
    rw [val_main_v15_apply, val_main_v14_apply, val_main_v6_apply, val_main_v5_apply, val_main_v4_apply, hi,
      messages_eq]
    rfl

end Cert.Gin.Bridge

end
-- ==== Proof.KernelResult.lean ====
/-
  THE KERNEL'S RESULT, IN THE REFERENCE'S TERMS.

  After the run the result array is the perceptron mlp of the arrays the grid found (KernelArray). Those are the
  launched node features and bias vectors, the launched weight matrices (the change of format being the identity),
  and the aggregate the program formed before the grid (KernelHost), which is the reference's scatter-add stage of
  the same features and edge list (AggBridge). So the kernel's result is mlp of the launched arrays and the
  reference's aggregate: the very term the reference's result is (RefMlp).
-/
import proofs.«151675_j39247411151300_2_alg».proof.Proof.KernelArray
import proofs.«151675_j39247411151300_2_alg».proof.Proof.AggBridge

noncomputable section

namespace Cert.Gin.Result

open Cert.KernelIdeal Cert.KernelIdeal.Gen Idealize.ShloMosaic Idealize.ShloMosaic.TcCoe Idealize.SL.Sem Cert.Gin

variable (m : (ℓ : Loc nD τ sig) → Buf (Elt Ideal) ℓ) (c : Dev nD)

/-- The result array after the kernel's run, as a function of the launched arrays. -/
theorem kernel_final : (dats m 0 c).arrAt 6 cfg0.N
    = mlp (m ((c : Thread nD τ).loc main_arg0))
        (Cert.ReferenceIdeal.Read.val_main_v18 (F := Ideal) (m ((c : Thread nD τ).loc main_arg0)) (m ((c : Thread nD τ).loc main_arg1)))
        (m ((c : Thread nD τ).loc main_arg2)) (m ((c : Thread nD τ).loc main_arg3))
        (m ((c : Thread nD τ).loc main_arg4)) (m ((c : Thread nD τ).loc main_arg5)) := by
  refine (Cert.Gin.Array.final m c).trans ?_
  rw [V_main_arg0 m c, V_main_arg3 m c, V_main_arg5 m c, Cert.Gin.KHost.V_agg m c, Cert.Gin.KHost.V_w1 m c,
    Cert.Gin.KHost.V_w2 m c, Cert.Gin.Bridge.agg_eq]

end Cert.Gin.Result

end
-- ==== Proof.lean ====
/- A graph-isomorphism layer: the sum of each node's incoming messages, then a two-layer perceptron, row by row.

   Both programs gather the message of edge e, row col e of the node features x, and sum the messages that arrive at
   each node row e, leaving self-loops (row e = col e) out: the kernel by sending a self-loop to the destination 50000,
   which is no node, the reference by multiplying a self-loop's message by a float zero. On the extended reals a
   product with zero is zero and a product with one is the factor, so both aggregates are, at node r, the sum over the
   edges into r that are not self-loops (EdgeSums, Aggregation, AggBridge). The perceptron
   relu ((1 * x + agg) w1 + b1) w2 + b2 is the same function of agg in both programs (MlpSpec): the reference computes
   it on whole arrays (RefMlp), the kernel on ten blocks of 5000 rows, each product into a zero accumulator and in a
   narrower float format, which changes nothing on the extended reals (KernelBlock, KernelArray, KernelHost,
   KernelResult). No finiteness of the inputs is used. The three frames are the generated runs; nothing was rewritten
   by the idealization, so there is nothing to preserve. -/
import proofs.«151675_j39247411151300_2_alg».proof.Defs
import proofs.«151675_j39247411151300_2_alg».proof.Proof.Gen.Kernel
import proofs.«151675_j39247411151300_2_alg».proof.Proof.Gen.Kernel.Skeleton
import proofs.«151675_j39247411151300_2_alg».proof.Proof.Gen.Kernel.Launch
import proofs.«151675_j39247411151300_2_alg».proof.Proof.Gen.Kernel.Points
import proofs.«151675_j39247411151300_2_alg».proof.Proof.Gen.Kernel.Frame
import proofs.«151675_j39247411151300_2_alg».proof.Proof.Gen.KernelIdeal
import proofs.«151675_j39247411151300_2_alg».proof.Proof.Gen.KernelIdeal.Skeleton
import proofs.«151675_j39247411151300_2_alg».proof.Proof.Gen.KernelIdeal.Launch
import proofs.«151675_j39247411151300_2_alg».proof.Proof.Gen.KernelIdeal.Points
import proofs.«151675_j39247411151300_2_alg».proof.Proof.Gen.KernelIdeal.Frame
import proofs.«151675_j39247411151300_2_alg».proof.Proof.Gen.ReferenceIdeal
import proofs.«151675_j39247411151300_2_alg».proof.Proof.Gen.Pre_finite_inputs
import proofs.«151675_j39247411151300_2_alg».proof.Proof.Gen.KernelIdeal.Value
import proofs.«151675_j39247411151300_2_alg».proof.Proof.Gen.ReferenceIdeal.Run
import proofs.«151675_j39247411151300_2_alg».proof.Proof.Gen.ReferenceIdeal.Read
import proofs.«151675_j39247411151300_2_alg».proof.Proof.RefMlp
import proofs.«151675_j39247411151300_2_alg».proof.Proof.KernelResult
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, the kernel's result array and the reference's
    are the perceptron of the arguments and of one and the same aggregate. -/
theorem algebraic : Cert.algebraic_KernelIdeal_ReferenceIdeal := by
  intro m ρ m' ρ' _ hagree
  refine ⟨_, (θ_run Cert.KernelIdeal.defs _ _).mono
    (fun r h c => ⟨(h c).1.trans (Cert.Gin.Result.kernel_final m c), (h c).2⟩)
    (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Gin.Ref.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
